-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x10 .f32) (main_arg5 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x10 .f32 := Host.absf main_arg4
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S5000x64 : Shape := ⟨2, ![5000, 64]⟩
abbrev S50000x10 : Shape := ⟨2, ![50000, 10]⟩
abbrev S2000x10 : Shape := ⟨2, ![2000, 10]⟩
abbrev S850000x10 : Shape := ⟨2, ![850000, 10]⟩
abbrev S1x10 : Shape := ⟨2, ![1, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 77
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x10, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x10, .f32⟩
  | .hbm, ⟨68, _⟩ => ⟨S850000x1, .f32⟩
  | .hbm, ⟨69, _⟩ => ⟨S850000x10, .f32⟩
  | .hbm, ⟨70, _⟩ => ⟨S850000x10, .f32⟩
  | .hbm, ⟨71, _⟩ => ⟨S_, .f32⟩
  | .hbm, ⟨72, _⟩ => ⟨S50000x10, .f32⟩
  | .hbm, ⟨73, _⟩ => ⟨S850000x1, .i32⟩
  | .hbm, ⟨74, _⟩ => ⟨S50000x10, .f32⟩
  | .hbm, ⟨75, _⟩ => ⟨S1x10, .f32⟩
  | .hbm, ⟨76, _⟩ => ⟨S50000x10, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S2000x64, .f32⟩
  | .local _ .vmem, ⟨11, _⟩ => ⟨S2000x64, .f32⟩
  | .local _ .vmem, ⟨12, _⟩ => ⟨S64x10, .f32⟩
  | .local _ .vmem, ⟨13, _⟩ => ⟨S2000x10, .f32⟩
  | .local _ .vmem, ⟨14, _⟩ => ⟨S2000x10, .f32⟩
  | .local _ .vmem, ⟨15, _⟩ => ⟨S5000x10, .f32⟩
  | .local _ .vmem, ⟨16, _⟩ => ⟨S5000x10, .f32⟩
  | .local _ .vmem, ⟨17, _⟩ => ⟨S1x10, .f32⟩
  | .local _ .vmem, ⟨18, _⟩ => ⟨S5000x10, .f32⟩
  | .local _ .vmem, ⟨19, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S2000x64_S2000x64 : S2000x64.ShapeCasts S2000x64
  inb_S64x10_S64x10_0_0 : ∀ a, (![0, 0] : Fin 2 → Nat) a + S64x10.size a ≤ S64x10.size a
  h_S64x10 : 0 < S64x10.numel
  inb_S2000x10_S2000x10_0_0 : ∀ a, (![0, 0] : Fin 2 → Nat) a + S2000x10.size a ≤ S2000x10.size a
  h_S2000x10 : 0 < S2000x10.numel
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  shapeCasts_S10_S1x10 : S10.ShapeCasts S1x10
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x10_S2000x10_1_0_0_1_n_n_wf : DotDims.WF S2000x64 S64x10 S2000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x10.size a ≤ S50000x10.size a
  hwx2_2 : ∀ i : grid2.Coords, EltTy.bits .f32 = 32 ∨ (Rect.block (s := S50000x10) S2000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S50000x10.size a
  hwx3_0 : ∀ i : grid3.Coords, EltTy.bits .f32 = 32 ∨ (Rect.block (s := S50000x10) S5000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x10.size a ≤ S50000x10.size a
  hwx3_2 : ∀ i : grid3.Coords, EltTy.bits .f32 = 32 ∨ (Rect.block (s := S50000x10) S5000x10.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x10 : Shape := ⟨2, ![50000, 10]⟩
abbrev S850000x10 : Shape := ⟨2, ![850000, 10]⟩
abbrev S1x10 : Shape := ⟨2, ![1, 10]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x10, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x10, .f32⟩
  | .hbm, ⟨72, _⟩ => ⟨S850000x1, .f32⟩
  | .hbm, ⟨73, _⟩ => ⟨S850000x10, .f32⟩
  | .hbm, ⟨74, _⟩ => ⟨S850000x10, .f32⟩
  | .hbm, ⟨75, _⟩ => ⟨S_, .f32⟩
  | .hbm, ⟨76, _⟩ => ⟨S50000x10, .f32⟩
  | .hbm, ⟨77, _⟩ => ⟨S850000x1, .i32⟩
  | .hbm, ⟨78, _⟩ => ⟨S50000x10, .f32⟩
  | .hbm, ⟨79, _⟩ => ⟨S1x10, .f32⟩
  | .hbm, ⟨80, _⟩ => ⟨S50000x10, .f32⟩
  | .hbm, ⟨81, _⟩ => ⟨S50000x10, .f32⟩
  | .hbm, ⟨82, _⟩ => ⟨S_, .f32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x10, .f32⟩
  | .hbm, ⟨89, _⟩ => ⟨S50000x10, .f32⟩
  | .hbm, ⟨90, _⟩ => ⟨S50000x10, .f32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S50000x1, .f32⟩
  | .hbm, ⟨95, _⟩ => ⟨S50000x10, .f32⟩
  | .hbm, ⟨96, _⟩ => ⟨S50000x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x10_S50000x10_1_0_0_1_n_n_wf : DotDims.WF S50000x64 S64x10 S50000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf

class Facts : Prop extends Facts₀ where

variable [Facts]
-- ==== Proof.KernelRun.lean ====
/-
  The idealized kernel's run with its two results named.

  @main is seven segments: host operations, the first matrix product's launch, host operations (gather, scale,
  scatter-add, the bias laid out as a row), the bias-and-maximum launch, the second matrix product's launch, host
  operations again, and the bias-and-log-softmax launch.  The buffer contents at the seven boundaries are a fold
  through those segments from the launch memory; the last one, `W7`, is what every unscoped buffer holds in the
  final state.  So both result arrays end at `W7` read at their buffers, and the arguments end as launched.
-/
import proofs.«123645_j26379689132134_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the log-probabilities and the hidden
    embeddings end at the last boundary's contents of their buffers, and the six arguments end as launched. -/
theorem run_results : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)), h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.GcnSpec.lean ====
/-
  The two-layer graph convolution as functions of whole arrays, on the extended reals.

  Nodes 0 … 49999 carry feature rows; the edge list has 800000 directed edges, and every node gets a self loop, so
  there are 850000 (source, target) pairs.  A layer multiplies the features by a weight matrix, then every target
  node sums the rows of its sources, each scaled by 1 / sqrt (deg source · deg target) with deg the number of pairs
  that point at the node, and adds a bias row.  The first layer ends in max (·, 0); the second in the logarithm of
  the softmax of each row.  Every function below is the composition of whole-array operations, so that two programs
  that apply the same operations to equal arrays are equal by congruence; nothing is read at an index here.
-/
import proofs.«123645_j26379689132134_1_alg».proof.ReferenceIdeal
import proofs.«123645_j26379689132134_1_alg».proof.Proof.Gen.ReferenceIdeal
import Idealize.ShloMosaic.PureOps.Ideal

noncomputable section

namespace Cert.Gcn

open Idealize.ShloMosaic Cert.ReferenceIdeal Cert.ReferenceIdeal.Facts₀ Cert.ReferenceIdeal.Facts

/-- The source node of each of the 850000 pairs: row 0 of the edge list, then the self loops 0 … 49999. -/
def srcIdx (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The target node of each pair: row 1 of the edge list, then the self loops. -/
def dstIdx (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node index column for a row lookup: a negative word v is read as v + 50000, then the vector is laid out as
    an [850000, 1] column. -/
def lookupCol (v : IVec S850000 32) : IVec S850000x1 32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- 1 / sqrt (deg n) per node n, deg n the number of pairs whose target is n (a sum of ones). -/
def invSqrtDeg (dst : IVec S850000 32) : FVec Ideal S50000 .f32 :=
  Host.rsqrt (Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32)))

/-- The weight of each pair: 1 / sqrt (deg source) times 1 / sqrt (deg target). -/
def pairWeight (src dst : IVec S850000 32) : FVec Ideal S850000 .f32 :=
  mulf (Host.gather gather_S50000_S850000x1_S850000_n_0_n_n_0_1_1 (invSqrtDeg dst) (lookupCol src)) (Host.gather gather_S50000_S850000x1_S850000_n_0_n_n_0_1_1 (invSqrtDeg dst) (lookupCol dst))

/-- Propagation of 64-wide rows: node n receives the sum, over the pairs whose target is n, of the source's row
    times the pair's weight. -/
def propagate64 (h : FVec Ideal S50000x64 .f32) (src dst : IVec S850000 32) (wt : FVec Ideal S850000 .f32) : FVec Ideal S50000x64 .f32 :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (lookupCol src)) (broadcastInDim S850000x64 ![0, 1] bcast_S850000x1_S850000x64_0_1 (broadcastInDim S850000x1 ![0] bcast_S850000_S850000x1_0 wt)))

/-- Propagation of 10-wide rows. -/
def propagate10 (h : FVec Ideal S50000x10 .f32) (src dst : IVec S850000 32) (wt : FVec Ideal S850000 .f32) : FVec Ideal S50000x10 .f32 :=
  Host.scatterAdd scatter_S50000x10_S850000x1_S850000x10_1_0_0_1 (broadcastInDim S50000x10 ![] bcast_S_S50000x10 (constant S_ .f32 0x00000000#32)) (broadcastInDim S850000x1 ![0] bcast_S850000_S850000x1_0 dst) (mulf (Host.gather gather_S50000x10_S850000x1_S850000x10_1_0_n_n_0_1_110 h (lookupCol src)) (broadcastInDim S850000x10 ![0, 1] bcast_S850000x1_S850000x10_0_1 (broadcastInDim S850000x1 ![0] bcast_S850000_S850000x1_0 wt)))

/-- The first layer's linear map: features [50000, 128] times weights [128, 64]. -/
def dense1 (x : FVec Ideal S50000x128 .f32) (w : FVec Ideal S128x64 .f32) : FVec Ideal S50000x64 .f32 :=
  Host.dotGeneral dot_S50000x128_S128x64_S50000x64_1_0_0_1_n_n none x w

/-- The second layer's linear map: hidden rows [50000, 64] times weights [64, 10]. -/
def dense2 (h : FVec Ideal S50000x64 .f32) (w : FVec Ideal S64x10 .f32) : FVec Ideal S50000x10 .f32 :=
  Host.dotGeneral dot_S50000x64_S64x10_S50000x10_1_0_0_1_n_n none h w

/-- A one-row bias added to every row, then the maximum with zero. -/
def addRowRelu (a : FVec Ideal S50000x64 .f32) (b : FVec Ideal S1x64 .f32) : FVec Ideal S50000x64 .f32 :=
  maximumf (addf a (broadcastInDim S50000x64 ![0, 1] bcast_S1x64_S50000x64_0_1 b)) (broadcastInDim S50000x64 ![] bcast_S_S50000x64 (constant S_ .f32 0x00000000#32))

/-- The logarithm of the softmax of every row of an array of logits: l − M − log Σ exp (l − M), M the row's maximum
    taken from −∞. -/
def logSoftmaxRows (l : FVec Ideal S50000x10 .f32) : FVec Ideal S50000x10 .f32 :=
  subf (subf l (broadcastInDim S50000x10 ![0, 1] bcast_S50000x1_S50000x10_0_1 (broadcastInDim S50000x1 ![0] bcast_S50000_S50000x1_0 (maximumf (broadcastInDim S50000 ![] bcast_S_S50000 (constant S_ .f32 0xFF800000#32)) (Host.reduce FloatOps.maximumf l (constant S_ .f32 0xFF800000#32) reducesTo_S50000x10_S50000_d1 h_S_))))) (broadcastInDim S50000x10 ![0, 1] bcast_S50000x1_S50000x10_0_1 (Host.log (broadcastInDim S50000x1 ![0] bcast_S50000_S50000x1_0 (Host.reduceAdd (Host.exp (subf l (broadcastInDim S50000x10 ![0, 1] bcast_S50000x1_S50000x10_0_1 (broadcastInDim S50000x1 ![0] bcast_S50000_S50000x1_0 (maximumf (broadcastInDim S50000 ![] bcast_S_S50000 (constant S_ .f32 0xFF800000#32)) (Host.reduce FloatOps.maximumf l (constant S_ .f32 0xFF800000#32) reducesTo_S50000x10_S50000_d1 h_S_)))))) (constant S_ .f32 0x00000000#32) reducesTo_S50000x10_S50000_d1 h_S_))))

/-- A one-row bias added to every row, then the logarithm of the softmax of every row. -/
def addRowLogSoftmax (a : FVec Ideal S50000x10 .f32) (b : FVec Ideal S1x10 .f32) : FVec Ideal S50000x10 .f32 :=
  logSoftmaxRows (addf a (broadcastInDim S50000x10 ![0, 1] bcast_S1x10_S50000x10_0_1 b))

/-- The hidden embeddings: layer one on the features, from the pairs and their weights. -/
def hidden (x : FVec Ideal S50000x128 .f32) (w1 : FVec Ideal S128x64 .f32) (b1 : FVec Ideal S64 .f32)
    (src dst : IVec S850000 32) (wt : FVec Ideal S850000 .f32) : FVec Ideal S50000x64 .f32 :=
  addRowRelu (propagate64 (dense1 x w1) src dst wt) (broadcastInDim S1x64 ![1] bcast_S64_S1x64_1 b1)

/-- The log-probabilities: layer two on the hidden embeddings. -/
def logProbs (h : FVec Ideal S50000x64 .f32) (w2 : FVec Ideal S64x10 .f32) (b2 : FVec Ideal S10 .f32)
    (src dst : IVec S850000 32) (wt : FVec Ideal S850000 .f32) : FVec Ideal S50000x10 .f32 :=
  addRowLogSoftmax (propagate10 (dense2 h w2) src dst wt) (broadcastInDim S1x10 ![1] bcast_S10_S1x10_1 b2)

end Cert.Gcn

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«123645_j26379689132134_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.Dense1.lean ====
/-
  The first matrix product (features times the first weight matrix), block by block.

  The grid has 25 points; point t multiplies rows 2000·t … 2000·t + 1999 of the left array by the whole weight matrix
  and writes rows 2000·t … 2000·t + 1999 of the product.  Entry (r, c) of a block is the sum over k of the block's
  row r of the left array times column c of the weights, which is entry (2000·t + r, c) of the whole product; the 25
  blocks tile the 50000 rows, so the array ends as the whole product.  The contents the launch finds, `V`, are
  arbitrary: the statement is about whatever the two operand buffers hold.
-/
import proofs.«123645_j26379689132134_1_alg».proof.Proof.Gen.KernelIdeal.Frame
import proofs.«123645_j26379689132134_1_alg».proof.Proof.GcnSpec
import proofs.«123645_j26379689132134_1_alg».proof.Proof.LibRowBlocks
import Idealize.ShloMosaic.Lib.Pipeline.Value
import Idealize.ShloMosaic.Lib.ValueIdx

noncomputable section

namespace Cert.KernelIdeal.Dense1

open Cert.KernelIdeal Cert.KernelIdeal.Gen Idealize.ShloMosaic Idealize.ShloMosaic.TcCoe Idealize.SL.Sem
open Idealize.ShloMosaic.Pipeline (Dat)
open Cert.Lib.PlainDot (rowIdx colIdx)

variable (V : (c : Dev nD) → (b : Ref sig .tc) → Buf (Elt Ideal) ((c : Thread nD τ).loc b))

theorem hz : (![0, 0] : Fin 2 → Nat) = fun _ => 0 := funext fun a => by fin_cases a <;> rfl

/-- Point t's blocks: the left array's and the product's start at block row t, the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two operand arrays. -/
theorem flushed_eq (c : Dev nD) (t : Fin cfg0.N) :
    (dat0 V c).flushed 2 t = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts t
  funext y
  show k0_pay1 (iblk0 V c 0 t) (iblk0 V c 1 t) y = Cert.Gcn.dense1 (V c main_arg0) (V c main_arg2) (((cfg0.win 2).blk t).view.emb y)
  unfold k0_pay1 Cert.Gcn.dense1
  refine Cert.Bridge.dot_block (R := 2000) (N := 50000) (K := 128) (C := 64)
    dot_S2000x128_S128x64_S2000x64_1_0_0_1_n_n rfl Cert.ReferenceIdeal.dot_S50000x128_S128x64_S50000x64_1_0_0_1_n_n rfl none none
    (V c main_arg0) (V c main_arg2) _ _
    (((cfg0.win 0).blk t).view.emb) (((cfg0.win 1).blk t).view.emb) (((cfg0.win 2).blk t).view.emb)
    (fun j => rfl) (fun j => rfl) (fun y k => ?_) (fun y k => ?_) y
  · funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 64 + 1 * (y 1).val = win0_2.index t (1 : Fin 2) * 64 + 1 * (y 1).val; omega

/-- An index of the product array is in point t's block iff its row is among the block's 2000 rows. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v27).slice (win0_2.rect t)).set ↔ _
  rw [View.set_slice_whole, Rect.mem_set_unit]
  exact Iff.rfl

/-- Every index of the product array is in the block of the point its row falls in. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  refine ⟨⟨(i 0).val / 2000, by omega⟩, flush0_2 _, ?_⟩
  rw [mem_blk]
  obtain ⟨e0, e1, e2, e3, e4, e5⟩ := idx_facts ⟨(i 0).val / 2000, by omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ _ ∧ _ < (i 0).val / 2000 * 2000 + 2000; omega
  | ⟨1, _⟩ => show win0_2.index _ (1 : Fin 2) * 64 ≤ (i 1).val ∧ (i 1).val < win0_2.index _ (1 : Fin 2) * 64 + 64; rw [e5]; omega

/-- THE PRODUCT ARRAY after the launch: the whole product of what the two operand buffers held. -/
theorem final (c : Dev nD) : (dat0 V c).arrAt 2 cfg0.N = Cert.Gcn.dense1 (V c main_arg0) (V c main_arg2) :=
  (dat0 V c).arrAt_eq_of_cover 2 (Cert.Gcn.dense1 (V c main_arg0) (V c main_arg2)) (fun t _ => flushed_eq V c t) cover

end Cert.KernelIdeal.Dense1

end
-- ==== Proof.Dense2.lean ====
/-
  The second matrix product (hidden embeddings times the second weight matrix), block by block.

  The grid has 25 points; point t multiplies rows 2000·t … 2000·t + 1999 of the left array by the whole weight matrix
  and writes rows 2000·t … 2000·t + 1999 of the product.  Entry (r, c) of a block is the sum over k of the block's
  row r of the left array times column c of the weights, which is entry (2000·t + r, c) of the whole product; the 25
  blocks tile the 50000 rows, so the array ends as the whole product.  The contents the launch finds, `V`, are
  arbitrary: the statement is about whatever the two operand buffers hold.
-/
import proofs.«123645_j26379689132134_1_alg».proof.Proof.Gen.KernelIdeal.Frame
import proofs.«123645_j26379689132134_1_alg».proof.Proof.GcnSpec
import proofs.«123645_j26379689132134_1_alg».proof.Proof.LibRowBlocks
import Idealize.ShloMosaic.Lib.Pipeline.Value
import Idealize.ShloMosaic.Lib.ValueIdx

noncomputable section

namespace Cert.KernelIdeal.Dense2

open Cert.KernelIdeal Cert.KernelIdeal.Gen Idealize.ShloMosaic Idealize.ShloMosaic.TcCoe Idealize.SL.Sem
open Idealize.ShloMosaic.Pipeline (Dat)
open Cert.Lib.PlainDot (rowIdx colIdx)

variable (V : (c : Dev nD) → (b : Ref sig .tc) → Buf (Elt Ideal) ((c : Thread nD τ).loc b))

theorem hz : (![0, 0] : Fin 2 → Nat) = fun _ => 0 := funext fun a => by fin_cases a <;> rfl

/-- Point t's blocks: the left array's and the product's start at block row t, the weights' block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two operand arrays. -/
theorem flushed_eq (c : Dev nD) (t : Fin cfg2.N) :
    (dat2 V c).flushed 2 t = ((cfg2.win 2).blk t).view.read (Elt Ideal) (Cert.Gcn.dense2 (V c main_v42) (V c main_arg4)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x10) hz]
  obtain ⟨e0, e1, e2, e3, e4, e5⟩ := idx_facts t
  funext y
  show k2_pay1 (iblk2 V c 0 t) (iblk2 V c 1 t) y = Cert.Gcn.dense2 (V c main_v42) (V c main_arg4) (((cfg2.win 2).blk t).view.emb y)
  unfold k2_pay1 Cert.Gcn.dense2
  refine Cert.Bridge.dot_block (R := 2000) (N := 50000) (K := 64) (C := 10)
    dot_S2000x64_S64x10_S2000x10_1_0_0_1_n_n rfl Cert.ReferenceIdeal.dot_S50000x64_S64x10_S50000x10_1_0_0_1_n_n rfl none none
    (V c main_v42) (V c main_arg4) _ _
    (((cfg2.win 0).blk t).view.emb) (((cfg2.win 1).blk t).view.emb) (((cfg2.win 2).blk t).view.emb)
    (fun j => congrFun (shapeCast_self (iblk2 V c 0 t) shapeCasts_S2000x64_S2000x64) j) (fun j => rfl) (fun y k => ?_) (fun y k => ?_) y
  · funext a; apply Fin.ext
    match a with
    | ⟨0, _⟩ => show win2_0.index t (0 : Fin 2) * 2000 + 1 * (y 0).val = win2_2.index t (0 : Fin 2) * 2000 + 1 * (y 0).val; omega
    | ⟨1, _⟩ => show win2_0.index t (1 : Fin 2) * 64 + 1 * k.val = k.val; omega
  · funext a; apply Fin.ext
    match a with
    | ⟨0, _⟩ => show win2_1.index t (0 : Fin 2) * 64 + 1 * k.val = k.val; omega
    | ⟨1, _⟩ => show win2_1.index t (1 : Fin 2) * 10 + 1 * (y 1).val = win2_2.index t (1 : Fin 2) * 10 + 1 * (y 1).val; omega

/-- An index of the product array is in point t's block iff its row is among the block's 2000 rows. -/
theorem mem_blk (t : Fin cfg2.N) (i : S50000x10.Idx) :
    i ∈ ((cfg2.win 2).blk t).view.set ↔ ∀ a : Fin 2, win2_2.index t a * S2000x10.size a ≤ (i a).val ∧ (i a).val < win2_2.index t a * S2000x10.size a + S2000x10.size a := by
  show i ∈ ((View.whole main_v43).slice (win2_2.rect t)).set ↔ _
  rw [View.set_slice_whole, Rect.mem_set_unit]
  exact Iff.rfl

/-- Every index of the product array is in the block of the point its row falls in. -/
theorem cover (i : S50000x10.Idx) : ∃ t : Fin cfg2.N, (cfg2.win 2).flush t = true ∧ i ∈ ((cfg2.win 2).blk t).view.set := by
  have hi0 : (i 0).val < 50000 := (i 0).isLt
  have hi1 : (i 1).val < 10 := (i 1).isLt
  have hN : cfg2.N = 25 := N_2
  refine ⟨⟨(i 0).val / 2000, by omega⟩, flush2_2 _, ?_⟩
  rw [mem_blk]
  obtain ⟨e0, e1, e2, e3, e4, e5⟩ := idx_facts ⟨(i 0).val / 2000, by omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ _ ∧ _ < (i 0).val / 2000 * 2000 + 2000; omega
  | ⟨1, _⟩ => show win2_2.index _ (1 : Fin 2) * 10 ≤ (i 1).val ∧ (i 1).val < win2_2.index _ (1 : Fin 2) * 10 + 10; rw [e5]; omega

/-- THE PRODUCT ARRAY after the launch: the whole product of what the two operand buffers held. -/
theorem final (c : Dev nD) : (dat2 V c).arrAt 2 cfg2.N = Cert.Gcn.dense2 (V c main_v42) (V c main_arg4) :=
  (dat2 V c).arrAt_eq_of_cover 2 (Cert.Gcn.dense2 (V c main_v42) (V c main_arg4)) (fun t _ => flushed_eq V c t) cover

end Cert.KernelIdeal.Dense2

end
-- ==== Proof.LibRowBias.lean ====
/-
  A one-row bias added to a block of rows, at the ideal values.

  An [N, C] array is cut into blocks of R consecutive rows.  A kernel adds a [1, C] bias row, stretched over the
  block's R rows, to a block; the host adds the same row, stretched over all N rows, to the whole array.  Read at an
  entry y of the block the two agree with the whole-array sum read where y sits in the array — and so does the sum
  followed by a maximum with a constant.  The embeddings of block entries into array entries are abstract maps with
  the index equations a row block satisfies.  Symbolic extents R, N, C.
-/
import Idealize.ShloMosaic.PureOps.Ideal.Laws
import Idealize.ShloMosaic.Lib.ValueIdx
import Idealize.ShloMosaic.Lib.Pipeline.Value
import proofs.«123645_j26379689132134_1_alg».proof.Proof.LibRowBlocks

noncomputable section

namespace Cert.Lib.RowBias

open Idealize.ShloMosaic Idealize.ShloMosaic.ValueIdx Cert.Bridge

variable {R N C : Nat}

/-- THE SUM of a row block and a one-row bias stretched over its rows, against the host's sum on the whole array. -/
theorem addRow_block (A : FVec Ideal ⟨2, ![N, C]⟩ .f32) (B : FVec Ideal ⟨2, ![1, C]⟩ .f32)
    (x0 : FVec Ideal ⟨2, ![R, C]⟩ .f32) (x2 : FVec Ideal ⟨2, ![1, C]⟩ .f32)
    (e0 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx2 : ∀ j, x2 j = B (e2 j))
    (h0 : ∀ y, e0 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf x0 (broadcastTo ⟨2, ![R, C]⟩ x2 hb) y = addf A (broadcastInDim ⟨2, ![N, C]⟩ ![0, 1] hB B) (eo y) := by
  rw [addf_apply, addf_apply, stretchRow_apply, hostStretchRow_apply, hx0, hx2, h0, h2]

/-- THE SUM FOLLOWED BY A MAXIMUM with a constant, block against whole array. -/
theorem addRowMax_block (A : FVec Ideal ⟨2, ![N, C]⟩ .f32) (B : FVec Ideal ⟨2, ![1, C]⟩ .f32)
    (x0 : FVec Ideal ⟨2, ![R, C]⟩ .f32) (x2 : FVec Ideal ⟨2, ![1, C]⟩ .f32)
    (e0 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx2 : ∀ j, x2 j = B (e2 j))
    (h0 : ∀ y, e0 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf x0 (broadcastTo ⟨2, ![R, C]⟩ x2 hb)) (broadcast ⟨2, ![R, C]⟩ (Scalar.ofBits (F := Ideal) .f32 z)) y
      = maximumf (addf A (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addRow_block A B x0 x2 e0 e2 eo hx0 hx2 h0 h2 hb hB y, hostSplat_apply]
  rfl

end Cert.Lib.RowBias

end
-- ==== Proof.BiasRelu.lean ====
/-
  The bias-and-maximum launch, block by block.

  The grid has 10 points; point t takes rows 5000·t … 5000·t + 4999 of the propagated array, adds the one-row bias to
  every row, takes the maximum with zero, and writes the same rows of the result.  An entry of the block is the
  whole-array computation read at the entry's place; the 10 blocks tile the 50000 rows.  The contents the launch
  finds, `V`, are arbitrary.
-/
import proofs.«123645_j26379689132134_1_alg».proof.Proof.Gen.KernelIdeal.Frame
import proofs.«123645_j26379689132134_1_alg».proof.Proof.GcnSpec
import proofs.«123645_j26379689132134_1_alg».proof.Proof.LibRowBias
import Idealize.ShloMosaic.Lib.Pipeline.Value
import Idealize.ShloMosaic.Lib.ValueIdx

noncomputable section

namespace Cert.KernelIdeal.BiasRelu

open Cert.KernelIdeal Cert.KernelIdeal.Gen Idealize.ShloMosaic Idealize.ShloMosaic.TcCoe Idealize.SL.Sem
open Idealize.ShloMosaic.Pipeline (Dat)
open Cert.Bridge (rowZero)

variable (V : (c : Dev nD) → (b : Ref sig .tc) → Buf (Elt Ideal) ((c : Thread nD τ).loc b))

theorem hz : (![0, 0] : Fin 2 → Nat) = fun _ => 0 := funext fun a => by fin_cases a <;> rfl

/-- Point t's blocks: the array's and the result's start at block row t, the bias row's block is the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of max (array + bias row, 0) of the two operand arrays. -/
theorem flushed_eq (c : Dev nD) (t : Fin cfg1.N) :
    (dat1 V c).flushed 2 t = ((cfg1.win 2).blk t).view.read (Elt Ideal) (Cert.Gcn.addRowRelu (V c main_v40) (V c main_v41)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  funext y
  show k1_pay1 (iblk1 V c 0 t) (iblk1 V c 1 t) y = Cert.Gcn.addRowRelu (V c main_v40) (V c main_v41) (((cfg1.win 2).blk t).view.emb y)
  unfold k1_pay1 Cert.Gcn.addRowRelu
  refine Cert.Lib.RowBias.addRowMax_block (R := 5000) (N := 50000) (C := 64)
    (V c main_v40) (V c main_v41) _ _
    (((cfg1.win 0).blk t).view.emb) (((cfg1.win 1).blk t).view.emb) (((cfg1.win 2).blk t).view.emb)
    (fun j => congrFun (shapeCast_self (iblk1 V c 0 t) shapeCasts_S5000x64_S5000x64) j)
    (fun j => congrFun (shapeCast_self (iblk1 V c 1 t) shapeCasts_S1x64_S1x64) j)
    (fun y => ?_) (fun y => ?_) _ _ _ 0x00000000#32 y
  · funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 64 + 1 * (y 1).val = win1_2.index t (1 : Fin 2) * 64 + 1 * (y 1).val; omega
  · funext a; apply Fin.ext
    match a with
    | ⟨0, _⟩ => show win1_1.index t (0 : Fin 2) * 1 + 1 * 0 = 0; omega
    | ⟨1, _⟩ => show win1_1.index t (1 : Fin 2) * 64 + 1 * (y 1).val = win1_2.index t (1 : Fin 2) * 64 + 1 * (y 1).val; omega

/-- An index of the result array is in point t's block iff its row is among the block's 5000 rows. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v42).slice (win1_2.rect t)).set ↔ _
  rw [View.set_slice_whole, Rect.mem_set_unit]
  exact Iff.rfl

/-- Every index of the result array is in the block of the point its row falls in. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  refine ⟨⟨(i 0).val / 5000, by omega⟩, flush1_2 _, ?_⟩
  rw [mem_blk]
  obtain ⟨e0, e1, e2, e3, e4, e5⟩ := idx_facts ⟨(i 0).val / 5000, by omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 64 ≤ (i 1).val ∧ (i 1).val < win1_2.index _ (1 : Fin 2) * 64 + 64; rw [e5]; omega

/-- THE RESULT ARRAY after the launch: max (array + bias row, 0) of what the two operand buffers held. -/
theorem final (c : Dev nD) : (dat1 V c).arrAt 2 cfg1.N = Cert.Gcn.addRowRelu (V c main_v40) (V c main_v41) :=
  (dat1 V c).arrAt_eq_of_cover 2 (Cert.Gcn.addRowRelu (V c main_v40) (V c main_v41)) (fun t _ => flushed_eq V c t) cover

end Cert.KernelIdeal.BiasRelu

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibLogSoftmaxRow.lean ====
/-
  The logarithm of the softmax of a row of extended reals, and the two operation trees that compute it.

  For a row x the function is  x c - M - log (sum over k of exp (x k - M)),  M the maximum of the row taken
  from the least extended real.  A row-blocked kernel computes it over an [a, b] block with lane reductions kept as
  [a, 1] columns and stretched back over the lanes; the host computes it over an [n, b] array with reductions over
  axis 1, the maximum once more joined with the least element, and each reduction broadcast back in two steps.
  Both trees, read at (r, c), are the function of row r at c.  No finiteness is used: the two sides are the same
  expression of the row's entries.
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce
import proofs.«123645_j26379689132134_1_alg».proof.Proof.LibRowLayout

noncomputable section

namespace Cert.Lib.LogSoftmaxRow

open Idealize.ShloMosaic Idealize.ShloMosaic.ValueIdx Cert.KernelIdeal.MvnKernel
open scoped BigOperators

variable {a b : ℕ}

/-- The f32 pattern of minus infinity, as an extended real. -/
abbrev negInf : EReal := Ideal.ofBits .f32 0xFF800000#32

/-- The maximum of a row, folded from minus infinity. -/
def rowMax (row : Fin b → EReal) : EReal := (Finset.univ : Finset (Fin b)).fold max negInf row

/-- The logarithm of the softmax of a row, at position c. -/
def logSoftmaxRow (row : Fin b → EReal) (c : Fin b) : EReal :=
  (row c - rowMax row) - Ideal.log (∑ k : Fin b, Ideal.exp (row k - rowMax row))

/-- Minus infinity is the least extended real: joining it with anything changes nothing. -/
theorem max_negInf (y : EReal) : max negInf y = y := by
  show max (Ideal.ofBits .f32 0xFF800000#32) y = y
  simp [Ideal.ofBits, Ideal.ieee]

/-- The zero pattern is the real zero. -/
theorem zero_add_ofBits (y : EReal) : Ideal.ofBits .f32 0x00000000#32 + y = y := by
  rw [Ideal.ofBits_zero_f32, zero_add]

/-- The logarithm of a vector, read at an index. -/
theorem log_apply {s : Shape} (x : FVec Ideal s .f32) (i : s.Idx) : log x i = Ideal.log (x i) := rfl

/-! ## The kernel's tree -/

/-- The lane maximum of a block, kept as a column and stretched back over the lanes, read at (p, c). -/
theorem laneMax_apply (L : FVec Ideal ⟨2, ![a, b]⟩ .f32)
    (hr : (⟨2, ![a, b]⟩ : Shape).Reduces [1] ⟨1, ![a]⟩) (hφ : FKind.Formats .f32)
    (hacc : (0xFF800000#32 : BitVec (FTy.bits .f32)) = FKind.maximumf.neutral .f32 hφ)
    (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩
        (multiReduction .maximumf [1] ⟨1, ![a]⟩ L 0xFF800000#32 hr hφ hacc) hc) hb (ix2 p c)
      = rowMax (fun k => L (ix2 p k)) := by
  rw [broadcastTo_a1_ab_apply, shapeCast_a_a1_apply, multiReduction_max_row]
  rfl

/-- The lane sum of a block, kept as a column, read at (p, 0). -/
theorem laneSum_apply (E : FVec Ideal ⟨2, ![a, b]⟩ .f32)
    (hr : (⟨2, ![a, b]⟩ : Shape).Reduces [1] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ E 0x00000000#32 hr hφ hacc) hc (ix2 p u)
      = ∑ k : Fin b, E (ix2 p k) := by
  rw [shapeCast_a_a1_apply, multiReduction_add_row]

/-- THE KERNEL'S TREE over a block of logits, read at (p, c): the function of row p at c. -/
theorem kernelTree_apply (L : FVec Ideal ⟨2, ![a, b]⟩ .f32)
    (hr : (⟨2, ![a, b]⟩ : Shape).Reduces [1] ⟨1, ![a]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (c : Fin b) :
    subf (subf L (broadcastTo ⟨2, ![a, b]⟩ (shapeCast ⟨2, ![a, 1]⟩
          (multiReduction .maximumf [1] ⟨1, ![a]⟩ L 0xFF800000#32 hr hφ hmax) hc) hb))
        (broadcastTo ⟨2, ![a, b]⟩ (log (shapeCast ⟨2, ![a, 1]⟩
          (multiReduction .add [1] ⟨1, ![a]⟩
            (exp (subf L (broadcastTo ⟨2, ![a, b]⟩ (shapeCast ⟨2, ![a, 1]⟩
              (multiReduction .maximumf [1] ⟨1, ![a]⟩ L 0xFF800000#32 hr hφ hmax) hc) hb)))
            0x00000000#32 hr hφ hadd) hc)) hb) (ix2 p c)
      = logSoftmaxRow (fun k => L (ix2 p k)) c := by
  rw [subf_apply, subf_apply, laneMax_apply, broadcastTo_a1_ab_apply, log_apply, laneSum_apply]
  unfold logSoftmaxRow
  refine congrArg (fun s => (L (ix2 p c) - rowMax (fun k => L (ix2 p k))) - Ideal.log s) ?_
  refine Finset.sum_congr rfl fun k _ => ?_
  rw [exp_apply, subf_apply, laneMax_apply]

/-! ## The host's tree -/

variable {n : ℕ}

/-- The reduced index r with lane k put back is (r, k). -/
theorem lift_row (h : (⟨2, ![n, b]⟩ : Shape).Reduces [1] (⟨1, ![n]⟩ : Shape)) (r : Fin n)
    (k : Fin ((⟨2, ![n, b]⟩ : Shape).size 1)) : h.lift (ix1 r) k = ix2 r (⟨k.val, k.isLt⟩ : Fin b) := by
  funext d; apply Fin.ext
  fin_cases d <;> rfl

/-- The host's maximum over axis 1 from minus infinity, joined once more with minus infinity, at row r. -/
theorem hostMax_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![]) (r : Fin n) :
    maximumf (broadcastInDim ⟨1, ![n]⟩ ![] hs (constant (F := Ideal) ⟨0, ![]⟩ .f32 0xFF800000#32))
        (Host.reduce FloatOps.maximumf L (constant (F := Ideal) ⟨0, ![]⟩ .f32 0xFF800000#32) h' hu) (ix1 r)
      = rowMax (fun k => L (ix2 r k)) := by
  rw [maximumf_apply, broadcastInDim_apply ![] hs _ (ix1 r) ix0 (fun d => d.elim0),
    Host.reduce_eq_fold_single FloatOps.maximumf L _ h' h hu]
  show max negInf ((Finset.univ : Finset (Fin b)).fold max negInf (L ∘ h.lift (ix1 r))) = _
  rw [max_negInf]
  unfold rowMax
  exact congrArg (fun f => (Finset.univ : Finset (Fin b)).fold max negInf f)
    (funext fun k => congrArg L (lift_row h r k))

/-- A vector laid out as an [n, 1] column by the host, read at (r, u): the vector at r. -/
theorem hostColumn_apply {α : Type} (v : (⟨1, ![n]⟩ : Shape).Idx → α)
    (h0 : (⟨1, ![n]⟩ : Shape).BroadcastsInDim ⟨2, ![n, 1]⟩ ![0]) (r : Fin n) (u : Fin 1) :
    broadcastInDim ⟨2, ![n, 1]⟩ ![0] h0 v (ix2 r u) = v (ix1 r) := by
  refine broadcastInDim_apply ![0] h0 v (ix2 r u) (ix1 r) (fun d => ?_)
  match d with
  | ⟨0, _⟩ =>
    show r.val = if n = 1 then 0 else r.val
    have hlt : r.val < n := r.isLt
    split_ifs with hn
    · omega
    · rfl

/-- An [n, 1] column stretched over b lanes by the host, read at (r, c): the column at row r. -/
theorem hostStretchColumn_apply {α : Type} (v : (⟨2, ![n, 1]⟩ : Shape).Idx → α)
    (h01 : (⟨2, ![n, 1]⟩ : Shape).BroadcastsInDim ⟨2, ![n, b]⟩ ![0, 1]) (r : Fin n) (c : Fin b) :
    broadcastInDim ⟨2, ![n, b]⟩ ![0, 1] h01 v (ix2 r c) = v (ix2 r (0 : Fin 1)) := by
  refine broadcastInDim_apply ![0, 1] h01 v (ix2 r c) (ix2 r (0 : Fin 1)) (fun d => ?_)
  match d with
  | ⟨0, _⟩ =>
    show r.val = if n = 1 then 0 else r.val
    have hlt : r.val < n := r.isLt
    split_ifs with hn
    · omega
    · rfl
  | ⟨1, _⟩ => exact (if_pos rfl).symm

/-- The host's sum over axis 1 from the zero pattern, at row r: the sum of the row's entries. -/
theorem hostSum_apply (E : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel) (r : Fin n) :
    Host.reduceAdd E (constant (F := Ideal) ⟨0, ![]⟩ .f32 0x00000000#32) h' hu (ix1 r) = ∑ k : Fin b, E (ix2 r k) := by
  simp only [Host.reduceAdd, Ideal.hostReduceAdd_def]
  rw [Ideal.hostReduceAdd_single h' h]
  show Ideal.ofBits .f32 0x00000000#32 + _ = _
  rw [zero_add_ofBits]
  exact Finset.sum_congr rfl fun k _ => congrArg E (lift_row h r k)

/-- The host's row maximum laid out as a column and stretched over the lanes, read at (r, c). -/
theorem hostMaxColumn_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![])
    (h0 : (⟨1, ![n]⟩ : Shape).BroadcastsInDim ⟨2, ![n, 1]⟩ ![0])
    (h01 : (⟨2, ![n, 1]⟩ : Shape).BroadcastsInDim ⟨2, ![n, b]⟩ ![0, 1]) (r : Fin n) (c : Fin b) :
    broadcastInDim ⟨2, ![n, b]⟩ ![0, 1] h01 (broadcastInDim ⟨2, ![n, 1]⟩ ![0] h0
        (maximumf (broadcastInDim ⟨1, ![n]⟩ ![] hs (constant (F := Ideal) ⟨0, ![]⟩ .f32 0xFF800000#32))
          (Host.reduce FloatOps.maximumf L (constant (F := Ideal) ⟨0, ![]⟩ .f32 0xFF800000#32) h' hu))) (ix2 r c)
      = rowMax (fun k => L (ix2 r k)) := by
  rw [hostStretchColumn_apply, hostColumn_apply, hostMax_apply L h' h hu hs r]

/-- The host's logarithm and exponential of a vector, read at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- THE HOST'S TREE over an array of logits, read at (r, c): the function of row r at c. -/
theorem hostTree_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![])
    (h0 : (⟨1, ![n]⟩ : Shape).BroadcastsInDim ⟨2, ![n, 1]⟩ ![0])
    (h01 : (⟨2, ![n, 1]⟩ : Shape).BroadcastsInDim ⟨2, ![n, b]⟩ ![0, 1]) (r : Fin n) (c : Fin b) :
    subf (subf L (broadcastInDim ⟨2, ![n, b]⟩ ![0, 1] h01 (broadcastInDim ⟨2, ![n, 1]⟩ ![0] h0
          (maximumf (broadcastInDim ⟨1, ![n]⟩ ![] hs (constant (F := Ideal) ⟨0, ![]⟩ .f32 0xFF800000#32))
            (Host.reduce FloatOps.maximumf L (constant (F := Ideal) ⟨0, ![]⟩ .f32 0xFF800000#32) h' hu)))))
        (broadcastInDim ⟨2, ![n, b]⟩ ![0, 1] h01 (Host.log (broadcastInDim ⟨2, ![n, 1]⟩ ![0] h0
          (Host.reduceAdd
            (Host.exp (subf L (broadcastInDim ⟨2, ![n, b]⟩ ![0, 1] h01 (broadcastInDim ⟨2, ![n, 1]⟩ ![0] h0
              (maximumf (broadcastInDim ⟨1, ![n]⟩ ![] hs (constant (F := Ideal) ⟨0, ![]⟩ .f32 0xFF800000#32))
                (Host.reduce FloatOps.maximumf L (constant (F := Ideal) ⟨0, ![]⟩ .f32 0xFF800000#32) h' hu))))))
            (constant (F := Ideal) ⟨0, ![]⟩ .f32 0x00000000#32) h' hu)))) (ix2 r c)
      = logSoftmaxRow (fun k => L (ix2 r k)) c := by
  rw [subf_apply, subf_apply, hostMaxColumn_apply L h' h hu hs h0 h01 r c, hostStretchColumn_apply, hostLog_apply,
    hostColumn_apply, hostSum_apply _ h' h hu r]
  unfold logSoftmaxRow
  refine congrArg (fun s => (L (ix2 r c) - rowMax (fun k => L (ix2 r k))) - Ideal.log s) ?_
  refine Finset.sum_congr rfl fun k _ => ?_
  rw [hostExp_apply, subf_apply, hostMaxColumn_apply L h' h hu hs h0 h01 r k]

end Cert.Lib.LogSoftmaxRow

end
-- ==== Proof.BiasLogSoftmax.lean ====
/-
  The bias-and-log-softmax launch, block by block.

  The grid has 10 points; point t takes rows 5000·t … 5000·t + 4999 of the propagated logits, adds the one-row bias to
  every row, and replaces each row l by l − M − log Σ exp (l − M), M the row's maximum.  A row of a block is a row of
  the array, so an entry of the block is the whole-array computation read at the entry's place: both are the
  logarithm of the softmax of the same row of (logits + bias) at the same column.  The 10 blocks tile the 50000 rows.
  The contents the launch finds, `V`, are arbitrary.
-/
import proofs.«123645_j26379689132134_1_alg».proof.Proof.Gen.KernelIdeal.Frame
import proofs.«123645_j26379689132134_1_alg».proof.Proof.GcnSpec
import proofs.«123645_j26379689132134_1_alg».proof.Proof.LibRowBias
import proofs.«123645_j26379689132134_1_alg».proof.Proof.LibLogSoftmaxRow
import Idealize.ShloMosaic.Lib.Pipeline.Value
import Idealize.ShloMosaic.Lib.ValueIdx

noncomputable section

namespace Cert.KernelIdeal.BiasLogSoftmax

open Cert.KernelIdeal Cert.KernelIdeal.Gen Idealize.ShloMosaic Idealize.ShloMosaic.TcCoe Idealize.SL.Sem
open Idealize.ShloMosaic.ValueIdx
open Idealize.ShloMosaic.Pipeline (Dat)
open Cert.Bridge (rowZero)
open Cert.Lib.LogSoftmaxRow (logSoftmaxRow kernelTree_apply hostTree_apply)

variable (V : (c : Dev nD) → (b : Ref sig .tc) → Buf (Elt Ideal) ((c : Thread nD τ).loc b))

theorem hz : (![0, 0] : Fin 2 → Nat) = fun _ => 0 := funext fun a => by fin_cases a <;> rfl

/-- Point t's blocks: the logits' and the result's start at block row t, the bias row's block is the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The array's logits plus the bias row stretched over all rows. -/
abbrev biased (c : Dev nD) : FVec Ideal Cert.ReferenceIdeal.S50000x10 .f32 :=
  addf (V c main_v56 : FVec Ideal Cert.ReferenceIdeal.S50000x10 .f32)
    (broadcastInDim Cert.ReferenceIdeal.S50000x10 ![0, 1] Cert.ReferenceIdeal.Facts₀.bcast_S1x10_S50000x10_0_1
      (V c main_v57 : FVec Ideal Cert.ReferenceIdeal.S1x10 .f32))

/-- The block's logits plus bias, read at an entry, are the array's logits plus bias at the entry's place. -/
theorem biased_block (c : Dev nD) (t : Fin cfg3.N) (y : S5000x10.Idx) :
    addf (shapeCast S5000x10 (iblk3 V c 0 t) shapeCasts_S5000x10_S5000x10)
        (broadcastTo S5000x10 (shapeCast S1x10 (iblk3 V c 1 t) shapeCasts_S1x10_S1x10) broadcasts_S1x10_S5000x10) y
      = biased V c (((cfg3.win 2).blk t).view.emb y) := by
  obtain ⟨e0, e1, e2, e3, e4, e5⟩ := idx_facts t
  refine Cert.Lib.RowBias.addRow_block (R := 5000) (N := 50000) (C := 10)
    (V c main_v56) (V c main_v57) _ _
    (((cfg3.win 0).blk t).view.emb) (((cfg3.win 1).blk t).view.emb) (((cfg3.win 2).blk t).view.emb)
    (fun j => congrFun (shapeCast_self (iblk3 V c 0 t) shapeCasts_S5000x10_S5000x10) j)
    (fun j => congrFun (shapeCast_self (iblk3 V c 1 t) shapeCasts_S1x10_S1x10) j)
    (fun y => ?_) (fun y => ?_) _ _ y
  · funext a; apply Fin.ext
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 10 + 1 * (y 1).val = win3_2.index t (1 : Fin 2) * 10 + 1 * (y 1).val; omega
  · funext a; apply Fin.ext
    match a with
    | ⟨0, _⟩ => show win3_1.index t (0 : Fin 2) * 1 + 1 * 0 = 0; omega
    | ⟨1, _⟩ => show win3_1.index t (1 : Fin 2) * 10 + 1 * (y 1).val = win3_2.index t (1 : Fin 2) * 10 + 1 * (y 1).val; omega

/-- Entry (p, q) of point t's block sits at row 5000·t + p, column q of the array. -/
theorem emb_ix2 (t : Fin cfg3.N) (p : Fin 5000) (q : Fin 10) (r : Fin 50000) (hr : r.val = 5000 * t.val + p.val) :
    ((cfg3.win 2).blk t).view.emb (ix2 p q) = ix2 r q := by
  obtain ⟨e0, e1, e2, e3, e4, e5⟩ := idx_facts t
  funext a; apply Fin.ext
  match a with
  | ⟨0, _⟩ => show win3_2.index t (0 : Fin 2) * 5000 + 1 * p.val = r.val; omega
  | ⟨1, _⟩ => show win3_2.index t (1 : Fin 2) * 10 + 1 * q.val = q.val; omega

/-- What point t writes back is block t of the row-wise log-softmax of (logits + bias row). -/
theorem flushed_eq (c : Dev nD) (t : Fin cfg3.N) :
    (dat3 V c).flushed 2 t = ((cfg3.win 2).blk t).view.read (Elt Ideal) (Cert.Gcn.addRowLogSoftmax (V c main_v56) (V c main_v57)) := by
  show (cfg3.win 2).cut (grid3.coords t) ((dat3 V c).after 2 t) = _
  rw [after3_2]
  unfold out3_2
  rw [View.canon_unit_zero hz]
  simp only [View.ld_unit_zero (S := S5000x10) hz, View.ld_unit_zero (S := S1x10) hz]
  refine funext fun (y : S5000x10.Idx) => ?_
  show k3_pay1 (iblk3 V c 0 t) (iblk3 V c 1 t) y = Cert.Gcn.addRowLogSoftmax (V c main_v56) (V c main_v57) (((cfg3.win 2).blk t).view.emb y)
  obtain ⟨p, q, rfl⟩ : ∃ (p : Fin 5000) (q : Fin 10), y = ix2 p q := ⟨y 0, y 1, eq_ix2 y⟩
  have hN : cfg3.N = 10 := N_3
  have htlt : t.val < 10 := hN ▸ t.isLt
  have hr : 5000 * t.val + p.val < 50000 := by have := p.isLt; omega
  have hemb := emb_ix2 t p q ⟨5000 * t.val + p.val, hr⟩ rfl
  unfold k3_pay1 Cert.Gcn.addRowLogSoftmax Cert.Gcn.logSoftmaxRows
  rw [hemb]
  refine (kernelTree_apply (a := 5000) (b := 10)
    (addf (shapeCast S5000x10 (iblk3 V c 0 t) shapeCasts_S5000x10_S5000x10)
      (broadcastTo S5000x10 (shapeCast S1x10 (iblk3 V c 1 t) shapeCasts_S1x10_S1x10) broadcasts_S1x10_S5000x10))
    reduces_S5000x10_S5000 (.inl rfl) rfl rfl shapeCasts_S5000_S5000x1 broadcasts_S5000x1_S5000x10 p q).trans ?_
  refine Eq.trans ?_ (hostTree_apply (n := 50000) (b := 10)
    (biased V c)
    Cert.ReferenceIdeal.Facts₀.reducesTo_S50000x10_S50000_d1 (by decide) Cert.ReferenceIdeal.Facts₀.h_S_
    Cert.ReferenceIdeal.Facts₀.bcast_S_S50000 Cert.ReferenceIdeal.Facts₀.bcast_S50000_S50000x1_0
    Cert.ReferenceIdeal.Facts₀.bcast_S50000x1_S50000x10_0_1 ⟨5000 * t.val + p.val, hr⟩ q).symm
  refine congrArg (fun row => logSoftmaxRow row q) (funext fun k => ?_)
  rw [← emb_ix2 t p k ⟨5000 * t.val + p.val, hr⟩ rfl]
  exact biased_block V c t (ix2 p k)

/-- An index of the result array is in point t's block iff its row is among the block's 5000 rows. -/
theorem mem_blk (t : Fin cfg3.N) (i : S50000x10.Idx) :
    i ∈ ((cfg3.win 2).blk t).view.set ↔ ∀ a : Fin 2, win3_2.index t a * S5000x10.size a ≤ (i a).val ∧ (i a).val < win3_2.index t a * S5000x10.size a + S5000x10.size a := by
  show i ∈ ((View.whole main_v58).slice (win3_2.rect t)).set ↔ _
  rw [View.set_slice_whole, Rect.mem_set_unit]
  exact Iff.rfl

/-- Every index of the result array is in the block of the point its row falls in. -/
theorem cover (i : S50000x10.Idx) : ∃ t : Fin cfg3.N, (cfg3.win 2).flush t = true ∧ i ∈ ((cfg3.win 2).blk t).view.set := by
  have hi0 : (i 0).val < 50000 := (i 0).isLt
  have hi1 : (i 1).val < 10 := (i 1).isLt
  have hN : cfg3.N = 10 := N_3
  refine ⟨⟨(i 0).val / 5000, by omega⟩, flush3_2 _, ?_⟩
  rw [mem_blk]
  obtain ⟨e0, e1, e2, e3, e4, e5⟩ := idx_facts ⟨(i 0).val / 5000, by omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
  | ⟨1, _⟩ => show win3_2.index _ (1 : Fin 2) * 10 ≤ (i 1).val ∧ (i 1).val < win3_2.index _ (1 : Fin 2) * 10 + 10; rw [e5]; omega

/-- THE RESULT ARRAY after the launch: the row-wise log-softmax of (logits + bias row) of what the two operand
    buffers held. -/
theorem final (c : Dev nD) : (dat3 V c).arrAt 2 cfg3.N = Cert.Gcn.addRowLogSoftmax (V c main_v56) (V c main_v57) :=
  (dat3 V c).arrAt_eq_of_cover 2 (Cert.Gcn.addRowLogSoftmax (V c main_v56) (V c main_v57)) (fun t _ => flushed_eq V c t) cover

end Cert.KernelIdeal.BiasLogSoftmax

end
-- ==== Proof.KernelValue.lean ====
/-
  What the idealized kernel's buffers hold at each of the seven boundaries of @main, as functions of the arguments.

  The host operations before the first launch compute, from the edge list alone, the source and target node of each
  of the 850000 pairs and each pair's weight.  The first launch leaves the product of the features and the first
  weight matrix; the host then propagates it along the pairs and lays the first bias out as a row; the second launch
  adds the row and takes the maximum with zero — the hidden embeddings; the third launch multiplies them by the
  second weight matrix; the host propagates again and lays the second bias out as a row; the last launch adds the
  row and takes the log-softmax of every row.  Buffers a segment does not write keep their contents, so the pairs,
  their weights and the arguments are carried from boundary to boundary.  A vector laid out as a one-row matrix by
  a reshape is the same row as the one laid out by adding a leading unit axis.
-/
import proofs.«123645_j26379689132134_1_alg».proof.Proof.Gen.KernelIdeal.Frame
import proofs.«123645_j26379689132134_1_alg».proof.Proof.GcnSpec
import proofs.«123645_j26379689132134_1_alg».proof.Proof.Dense1
import proofs.«123645_j26379689132134_1_alg».proof.Proof.Dense2
import proofs.«123645_j26379689132134_1_alg».proof.Proof.BiasRelu
import proofs.«123645_j26379689132134_1_alg».proof.Proof.BiasLogSoftmax
import proofs.«123645_j26379689132134_1_alg».proof.Proof.LibRowBlocks
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Before the first launch: the pairs and their weights, from the edge list -/

theorem V1_src : V1 m ρ c main_v3 = (Cert.Gcn.srcIdx (m ((c : Thread nD τ).loc main_arg1))) := by
  show StableHlo.after hostOps0 (W0 m ρ c) (Proc.devRef .tc main_v3) = _
  dsimp only [hostOps0]
  after_results_simp <;> rfl
theorem V1_dst : V1 m ρ c main_v6 = (Cert.Gcn.dstIdx (m ((c : Thread nD τ).loc main_arg1))) := by
  show StableHlo.after hostOps0 (W0 m ρ c) (Proc.devRef .tc main_v6) = _
  dsimp only [hostOps0]
  after_results_simp <;> rfl
theorem V1_wt : V1 m ρ c main_v26 = (Cert.Gcn.pairWeight (Cert.Gcn.srcIdx (m ((c : Thread nD τ).loc main_arg1))) (Cert.Gcn.dstIdx (m ((c : Thread nD τ).loc main_arg1)))) := by
  show StableHlo.after hostOps0 (W0 m ρ c) (Proc.devRef .tc main_v26) = _
  dsimp only [hostOps0]
  after_results_simp <;> rfl
theorem V1_arg0 : V1 m ρ c main_arg0 = (m ((c : Thread nD τ).loc main_arg0)) := by
  show StableHlo.after hostOps0 (W0 m ρ c) (Proc.devRef .tc main_arg0) = _
  dsimp only [hostOps0]
  after_results_simp <;> rfl
theorem V1_arg2 : V1 m ρ c main_arg2 = (m ((c : Thread nD τ).loc main_arg2)) := by
  show StableHlo.after hostOps0 (W0 m ρ c) (Proc.devRef .tc main_arg2) = _
  dsimp only [hostOps0]
  after_results_simp <;> rfl
theorem V1_arg3 : V1 m ρ c main_arg3 = (m ((c : Thread nD τ).loc main_arg3)) := by
  show StableHlo.after hostOps0 (W0 m ρ c) (Proc.devRef .tc main_arg3) = _
  dsimp only [hostOps0]
  after_results_simp <;> rfl
theorem V1_arg4 : V1 m ρ c main_arg4 = (m ((c : Thread nD τ).loc main_arg4)) := by
  show StableHlo.after hostOps0 (W0 m ρ c) (Proc.devRef .tc main_arg4) = _
  dsimp only [hostOps0]
  after_results_simp <;> rfl
theorem V1_arg5 : V1 m ρ c main_arg5 = (m ((c : Thread nD τ).loc main_arg5)) := by
  show StableHlo.after hostOps0 (W0 m ρ c) (Proc.devRef .tc main_arg5) = _
  dsimp only [hostOps0]
  after_results_simp <;> rfl

/-! ## After the first launch: the product of the features and the first weights -/

theorem V2_lin : V2 m ρ c main_v27 = Cert.Gcn.dense1 (m ((c : Thread nD τ).loc main_arg0)) (m ((c : Thread nD τ).loc main_arg2)) :=
  (W2_arr m ρ c 2).trans ((Cert.KernelIdeal.Dense1.final (V1 m ρ) c).trans (by rw [V1_arg0, V1_arg2]))
theorem V2_src : V2 m ρ c main_v3 = V1 m ρ c main_v3 := W2_of_ne m ρ c main_v3 (by decide)
theorem V2_dst : V2 m ρ c main_v6 = V1 m ρ c main_v6 := W2_of_ne m ρ c main_v6 (by decide)
theorem V2_wt : V2 m ρ c main_v26 = V1 m ρ c main_v26 := W2_of_ne m ρ c main_v26 (by decide)
theorem V2_arg3 : V2 m ρ c main_arg3 = V1 m ρ c main_arg3 := W2_of_ne m ρ c main_arg3 (by decide)
theorem V2_arg4 : V2 m ρ c main_arg4 = V1 m ρ c main_arg4 := W2_of_ne m ρ c main_arg4 (by decide)
theorem V2_arg5 : V2 m ρ c main_arg5 = V1 m ρ c main_arg5 := W2_of_ne m ρ c main_arg5 (by decide)

/-! ## Before the second launch: the product propagated along the pairs, the first bias as a row -/

theorem V3_agg : V3 m ρ c main_v40 = Cert.Gcn.propagate64 (V2 m ρ c main_v27) (V2 m ρ c main_v3) (V2 m ρ c main_v6) (V2 m ρ c main_v26) := by
  show StableHlo.after hostOps1 (W2 m ρ c) (Proc.devRef .tc main_v40) = _
  dsimp only [hostOps1]
  after_results_simp <;> rfl
theorem V3_bias : V3 m ρ c main_v41 = shapeCast S1x64 (V2 m ρ c main_arg3) shapeCasts_S64_S1x64 := by
  show StableHlo.after hostOps1 (W2 m ρ c) (Proc.devRef .tc main_v41) = _
  dsimp only [hostOps1]
  after_results_simp <;> rfl
theorem V3_src : V3 m ρ c main_v3 = V2 m ρ c main_v3 := by
  show StableHlo.after hostOps1 (W2 m ρ c) (Proc.devRef .tc main_v3) = _
  dsimp only [hostOps1]
  after_results_simp <;> rfl
theorem V3_dst : V3 m ρ c main_v6 = V2 m ρ c main_v6 := by
  show StableHlo.after hostOps1 (W2 m ρ c) (Proc.devRef .tc main_v6) = _
  dsimp only [hostOps1]
  after_results_simp <;> rfl
theorem V3_wt : V3 m ρ c main_v26 = V2 m ρ c main_v26 := by
  show StableHlo.after hostOps1 (W2 m ρ c) (Proc.devRef .tc main_v26) = _
  dsimp only [hostOps1]
  after_results_simp <;> rfl
theorem V3_arg4 : V3 m ρ c main_arg4 = V2 m ρ c main_arg4 := by
  show StableHlo.after hostOps1 (W2 m ρ c) (Proc.devRef .tc main_arg4) = _
  dsimp only [hostOps1]
  after_results_simp <;> rfl
theorem V3_arg5 : V3 m ρ c main_arg5 = V2 m ρ c main_arg5 := by
  show StableHlo.after hostOps1 (W2 m ρ c) (Proc.devRef .tc main_arg5) = _
  dsimp only [hostOps1]
  after_results_simp <;> rfl

/-! ## After the second launch: the hidden embeddings -/

theorem V4_hidden : V4 m ρ c main_v42 = Cert.Gcn.hidden (m ((c : Thread nD τ).loc main_arg0)) (m ((c : Thread nD τ).loc main_arg2)) (m ((c : Thread nD τ).loc main_arg3)) (Cert.Gcn.srcIdx (m ((c : Thread nD τ).loc main_arg1))) (Cert.Gcn.dstIdx (m ((c : Thread nD τ).loc main_arg1))) (Cert.Gcn.pairWeight (Cert.Gcn.srcIdx (m ((c : Thread nD τ).loc main_arg1))) (Cert.Gcn.dstIdx (m ((c : Thread nD τ).loc main_arg1)))) := by
  refine (W4_arr m ρ c 2).trans ((Cert.KernelIdeal.BiasRelu.final (V3 m ρ) c).trans ?_)
  rw [V3_agg, V3_bias, V2_lin, V2_src, V2_dst, V2_wt, V2_arg3, V1_src, V1_dst, V1_wt, V1_arg3]
  unfold Cert.Gcn.hidden
  exact congrArg (Cert.Gcn.addRowRelu _) (Cert.Bridge.reshapeRow_eq (C := 64) _ _ _)
theorem V4_src : V4 m ρ c main_v3 = V3 m ρ c main_v3 := W4_of_ne m ρ c main_v3 (by decide)
theorem V4_dst : V4 m ρ c main_v6 = V3 m ρ c main_v6 := W4_of_ne m ρ c main_v6 (by decide)
theorem V4_wt : V4 m ρ c main_v26 = V3 m ρ c main_v26 := W4_of_ne m ρ c main_v26 (by decide)
theorem V4_arg4 : V4 m ρ c main_arg4 = V3 m ρ c main_arg4 := W4_of_ne m ρ c main_arg4 (by decide)
theorem V4_arg5 : V4 m ρ c main_arg5 = V3 m ρ c main_arg5 := W4_of_ne m ρ c main_arg5 (by decide)

/-! ## After the third launch: the product of the hidden embeddings and the second weights -/

theorem V5_lin : V5 m ρ c main_v43 = Cert.Gcn.dense2 (V4 m ρ c main_v42) (m ((c : Thread nD τ).loc main_arg4)) :=
  (W5_arr m ρ c 2).trans ((Cert.KernelIdeal.Dense2.final (V4 m ρ) c).trans (by rw [V4_arg4, V3_arg4, V2_arg4, V1_arg4]))
theorem V5_src : V5 m ρ c main_v3 = V4 m ρ c main_v3 := W5_of_ne m ρ c main_v3 (by decide)
theorem V5_dst : V5 m ρ c main_v6 = V4 m ρ c main_v6 := W5_of_ne m ρ c main_v6 (by decide)
theorem V5_wt : V5 m ρ c main_v26 = V4 m ρ c main_v26 := W5_of_ne m ρ c main_v26 (by decide)
/-- The hidden embeddings are the third launch's left operand: an input array is left as it was found. -/
theorem V5_hidden : V5 m ρ c main_v42 = V4 m ρ c main_v42 :=
  (W5_arr m ρ c 0).trans (((dat2 (V4 m ρ) c).arrAt_in 0 rfl _).trans (A_eq2 (V4 m ρ) c 0))
theorem V5_arg5 : V5 m ρ c main_arg5 = V4 m ρ c main_arg5 := W5_of_ne m ρ c main_arg5 (by decide)

/-! ## Before the last launch: the second product propagated along the pairs, the second bias as a row -/

theorem V6_agg : V6 m ρ c main_v56 = Cert.Gcn.propagate10 (V5 m ρ c main_v43) (V5 m ρ c main_v3) (V5 m ρ c main_v6) (V5 m ρ c main_v26) := by
  show StableHlo.after hostOps3 (W5 m ρ c) (Proc.devRef .tc main_v56) = _
  dsimp only [hostOps3]
  after_results_simp <;> rfl
theorem V6_bias : V6 m ρ c main_v57 = shapeCast S1x10 (V5 m ρ c main_arg5) shapeCasts_S10_S1x10 := by
  show StableHlo.after hostOps3 (W5 m ρ c) (Proc.devRef .tc main_v57) = _
  dsimp only [hostOps3]
  after_results_simp <;> rfl
theorem V6_hidden : V6 m ρ c main_v42 = V5 m ρ c main_v42 := by
  show StableHlo.after hostOps3 (W5 m ρ c) (Proc.devRef .tc main_v42) = _
  dsimp only [hostOps3]
  after_results_simp <;> rfl

/-! ## After the last launch: the two results -/

/-- The source, target and weight of every pair are carried unchanged to the third launch's exit. -/
theorem V5_src' : V5 m ρ c main_v3 = (Cert.Gcn.srcIdx (m ((c : Thread nD τ).loc main_arg1))) := by rw [V5_src, V4_src, V3_src, V2_src, V1_src]
theorem V5_dst' : V5 m ρ c main_v6 = (Cert.Gcn.dstIdx (m ((c : Thread nD τ).loc main_arg1))) := by rw [V5_dst, V4_dst, V3_dst, V2_dst, V1_dst]
theorem V5_wt' : V5 m ρ c main_v26 = (Cert.Gcn.pairWeight (Cert.Gcn.srcIdx (m ((c : Thread nD τ).loc main_arg1))) (Cert.Gcn.dstIdx (m ((c : Thread nD τ).loc main_arg1)))) := by rw [V5_wt, V4_wt, V3_wt, V2_wt, V1_wt]
theorem V5_arg5' : V5 m ρ c main_arg5 = (m ((c : Thread nD τ).loc main_arg5)) := by rw [V5_arg5, V4_arg5, V3_arg5, V2_arg5, V1_arg5]

/-- THE HIDDEN EMBEDDINGS at the end of @main. -/
theorem hidden_eq : W7 m ρ c (Proc.devRef .tc main_v42) = Cert.Gcn.hidden (m ((c : Thread nD τ).loc main_arg0)) (m ((c : Thread nD τ).loc main_arg2)) (m ((c : Thread nD τ).loc main_arg3)) (Cert.Gcn.srcIdx (m ((c : Thread nD τ).loc main_arg1))) (Cert.Gcn.dstIdx (m ((c : Thread nD τ).loc main_arg1))) (Cert.Gcn.pairWeight (Cert.Gcn.srcIdx (m ((c : Thread nD τ).loc main_arg1))) (Cert.Gcn.dstIdx (m ((c : Thread nD τ).loc main_arg1)))) :=
  (W7_of_ne m ρ c main_v42 (by decide)).trans ((V6_hidden m ρ c).trans ((V5_hidden m ρ c).trans (V4_hidden m ρ c)))

/-- THE LOG-PROBABILITIES at the end of @main. -/
theorem logProbs_eq : W7 m ρ c (Proc.devRef .tc main_v58)
    = Cert.Gcn.logProbs (Cert.Gcn.hidden (m ((c : Thread nD τ).loc main_arg0)) (m ((c : Thread nD τ).loc main_arg2)) (m ((c : Thread nD τ).loc main_arg3)) (Cert.Gcn.srcIdx (m ((c : Thread nD τ).loc main_arg1))) (Cert.Gcn.dstIdx (m ((c : Thread nD τ).loc main_arg1))) (Cert.Gcn.pairWeight (Cert.Gcn.srcIdx (m ((c : Thread nD τ).loc main_arg1))) (Cert.Gcn.dstIdx (m ((c : Thread nD τ).loc main_arg1))))) (m ((c : Thread nD τ).loc main_arg4)) (m ((c : Thread nD τ).loc main_arg5)) (Cert.Gcn.srcIdx (m ((c : Thread nD τ).loc main_arg1))) (Cert.Gcn.dstIdx (m ((c : Thread nD τ).loc main_arg1))) (Cert.Gcn.pairWeight (Cert.Gcn.srcIdx (m ((c : Thread nD τ).loc main_arg1))) (Cert.Gcn.dstIdx (m ((c : Thread nD τ).loc main_arg1)))) := by
  refine (W7_arr m ρ c 2).trans ((Cert.KernelIdeal.BiasLogSoftmax.final (V6 m ρ) c).trans ?_)
  rw [V6_agg, V6_bias, V5_lin, V5_src', V5_dst', V5_wt', V5_arg5', V4_hidden]
  unfold Cert.Gcn.logProbs
  exact congrArg (Cert.Gcn.addRowLogSoftmax _) (Cert.Bridge.reshapeRow_eq (C := 10) _ _ _)

end Cert.KernelIdeal.Value

end
-- ==== Proof.RefGroups.lean ====
/-
  The reference's 91 host operations in three groups.

  The first 33 compute, from the edge list alone, the source and target node of each of the 850000 pairs and each
  pair's weight.  The next 23 are the first layer: the product of the features and the first weights, propagated along
  the pairs, plus the bias, maximum with zero — the hidden embeddings.  The last 35 are the second layer: product,
  propagation, bias, and the log-softmax of every row.  The contents after a group are the fold of its operations over
  the contents before it, so the contents after all 91 are the three folds one after the other.
-/
import proofs.«123645_j26379689132134_1_alg».proof.Proof.RefOps
import Idealize.ShloMosaic.Lib.Pipeline.Frame
import Idealize.ShloMosaic.PureOps.Ideal

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

/-- The 33 operations on the edge list. -/
abbrev opsPairs : List (HloOp τ sig (Elt Ideal)) := (ops (F := Ideal)).take 33
/-- The 23 operations of the first layer. -/
abbrev opsLayer1 : List (HloOp τ sig (Elt Ideal)) := ((ops (F := Ideal)).drop 33).take 23
/-- The 35 operations of the second layer. -/
abbrev opsLayer2 : List (HloOp τ sig (Elt Ideal)) := (ops (F := Ideal)).drop 56

theorem ops_split : (ops (F := Ideal)) = opsPairs ++ (opsLayer1 ++ opsLayer2) := rfl

/-- The contents after all the operations: the three groups' folds, one after the other. -/
theorem after_ops (U : Valuation τ sig (Elt Ideal)) :
    after (ops (F := Ideal)) U = after opsLayer2 (after opsLayer1 (after opsPairs U)) :=
  (congrArg (fun l => after l U) ops_split).trans (by rw [StableHlo.after_append, StableHlo.after_append])

end Cert.ReferenceIdeal.RefValue

end
-- ==== Proof.RefPairs.lean ====
/-
  The reference's first 33 operations, read over arbitrary contents U before them: they leave the source node, the
  target node and the weight of each of the 850000 pairs as functions of the edge list, and do not write the other
  arguments.
-/
import proofs.«123645_j26379689132134_1_alg».proof.Proof.RefGroups
import proofs.«123645_j26379689132134_1_alg».proof.Proof.GcnSpec
import Idealize.ShloMosaic.PureOps.Ideal

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable (U : Valuation τ sig (Elt Ideal))

theorem pairs_src : after opsPairs U (Proc.devRef .tc main_v3) = Cert.Gcn.srcIdx (U (Proc.devRef .tc main_arg1)) := by
  simp only [opsPairs, ops, List.take_succ_cons, List.take_zero, List.drop_succ_cons, List.drop_zero]
  after_results_simp <;> rfl
theorem pairs_dst : after opsPairs U (Proc.devRef .tc main_v6) = Cert.Gcn.dstIdx (U (Proc.devRef .tc main_arg1)) := by
  simp only [opsPairs, ops, List.take_succ_cons, List.take_zero, List.drop_succ_cons, List.drop_zero]
  after_results_simp <;> rfl
theorem pairs_wt : after opsPairs U (Proc.devRef .tc main_v26) = Cert.Gcn.pairWeight (Cert.Gcn.srcIdx (U (Proc.devRef .tc main_arg1))) (Cert.Gcn.dstIdx (U (Proc.devRef .tc main_arg1))) := by
  simp only [opsPairs, ops, List.take_succ_cons, List.take_zero, List.drop_succ_cons, List.drop_zero]
  after_results_simp <;> rfl
theorem pairs_arg0 : after opsPairs U (Proc.devRef .tc main_arg0) = U (Proc.devRef .tc main_arg0) := by
  simp only [opsPairs, ops, List.take_succ_cons, List.take_zero, List.drop_succ_cons, List.drop_zero]
  after_results_simp <;> rfl
theorem pairs_arg2 : after opsPairs U (Proc.devRef .tc main_arg2) = U (Proc.devRef .tc main_arg2) := by
  simp only [opsPairs, ops, List.take_succ_cons, List.take_zero, List.drop_succ_cons, List.drop_zero]
  after_results_simp <;> rfl
theorem pairs_arg3 : after opsPairs U (Proc.devRef .tc main_arg3) = U (Proc.devRef .tc main_arg3) := by
  simp only [opsPairs, ops, List.take_succ_cons, List.take_zero, List.drop_succ_cons, List.drop_zero]
  after_results_simp <;> rfl
theorem pairs_arg4 : after opsPairs U (Proc.devRef .tc main_arg4) = U (Proc.devRef .tc main_arg4) := by
  simp only [opsPairs, ops, List.take_succ_cons, List.take_zero, List.drop_succ_cons, List.drop_zero]
  after_results_simp <;> rfl
theorem pairs_arg5 : after opsPairs U (Proc.devRef .tc main_arg5) = U (Proc.devRef .tc main_arg5) := by
  simp only [opsPairs, ops, List.take_succ_cons, List.take_zero, List.drop_succ_cons, List.drop_zero]
  after_results_simp <;> rfl

end Cert.ReferenceIdeal.RefValue

end
-- ==== Proof.LibTypedRef.lean ====
/-
  Contents carried to a typed buffer reference and back.

  A module-local function of a host program names its buffers by references that carry the type of the tensor value
  they hold; contents stated at that type are moved to the buffer's own type, and back, along the equation between
  the two.  Moving there and back again, in either order, changes nothing.  Any signature, any value types.
-/
import Idealize.ShloMosaic.Lib.StableHlo

noncomputable section

namespace Cert.Lib.TypedRef

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, hd, hs⟩ := x
  subst h
  rfl

/-- Contents of the buffer moved to the value's type and back are the contents. -/
theorem toBuf_ofBuf (x : TRef sig T) (w : x.ref.ty.Contents Val) : x.toBuf (x.ofBuf w) = w := by
  obtain ⟨r, h, hd, hs⟩ := x
  subst h
  rfl

end Cert.Lib.TypedRef

end
-- ==== Proof.RefLayer1.lean ====
/-
  The reference's first layer (23 operations), read over arbitrary contents U before it: it leaves the hidden
  embeddings as the layer function of the features, the first weights and bias, and the pairs with their weights, and
  does not write the pairs, their weights or the second layer's arguments.  The maximum with zero is an outlined
  function whose operations name their buffers by typed references; contents carried to such a reference and back are
  unchanged, which is removed before the two sides are compared.
-/
import proofs.«123645_j26379689132134_1_alg».proof.Proof.RefGroups
import proofs.«123645_j26379689132134_1_alg».proof.Proof.GcnSpec
import proofs.«123645_j26379689132134_1_alg».proof.Proof.LibTypedRef
import Idealize.ShloMosaic.PureOps.Ideal

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable (U : Valuation τ sig (Elt Ideal))

theorem layer1_hidden : after opsLayer1 U (Proc.devRef .tc main_v44)
    = Cert.Gcn.hidden (U (Proc.devRef .tc main_arg0)) (U (Proc.devRef .tc main_arg2)) (U (Proc.devRef .tc main_arg3)) (U (Proc.devRef .tc main_v3)) (U (Proc.devRef .tc main_v6)) (U (Proc.devRef .tc main_v26)) := by
  simp only [opsLayer1, ops, List.take_succ_cons, List.take_zero, List.drop_succ_cons, List.drop_zero]
  after_results_simp
  simp only [Cert.Lib.TypedRef.ofBuf_toBuf]
  have hin : ∀ w, (TRef.of (sig := sig) (T := ⟨S50000x64, .f32⟩) main_v43).ofBuf (Val := Elt Ideal) w = w := fun _ => rfl
  have hout : ∀ w, (TRef.of (sig := sig) (T := ⟨S50000x64, .f32⟩) main_v44).toBuf (Val := Elt Ideal) w = w := fun _ => rfl
  simp only [hin, hout]
  rfl
theorem layer1_v3 : after opsLayer1 U (Proc.devRef .tc main_v3) = U (Proc.devRef .tc main_v3) := by
  simp only [opsLayer1, ops, List.take_succ_cons, List.take_zero, List.drop_succ_cons, List.drop_zero]
  after_results_simp <;> rfl
theorem layer1_v6 : after opsLayer1 U (Proc.devRef .tc main_v6) = U (Proc.devRef .tc main_v6) := by
  simp only [opsLayer1, ops, List.take_succ_cons, List.take_zero, List.drop_succ_cons, List.drop_zero]
  after_results_simp <;> rfl
theorem layer1_v26 : after opsLayer1 U (Proc.devRef .tc main_v26) = U (Proc.devRef .tc main_v26) := by
  simp only [opsLayer1, ops, List.take_succ_cons, List.take_zero, List.drop_succ_cons, List.drop_zero]
  after_results_simp <;> rfl
theorem layer1_arg4 : after opsLayer1 U (Proc.devRef .tc main_arg4) = U (Proc.devRef .tc main_arg4) := by
  simp only [opsLayer1, ops, List.take_succ_cons, List.take_zero, List.drop_succ_cons, List.drop_zero]
  after_results_simp <;> rfl
theorem layer1_arg5 : after opsLayer1 U (Proc.devRef .tc main_arg5) = U (Proc.devRef .tc main_arg5) := by
  simp only [opsLayer1, ops, List.take_succ_cons, List.take_zero, List.drop_succ_cons, List.drop_zero]
  after_results_simp <;> rfl

end Cert.ReferenceIdeal.RefValue

end
-- ==== Proof.RefLayer2.lean ====
/-
  The reference's second layer (35 operations), read over arbitrary contents U before it: it leaves the
  log-probabilities as the layer function of the hidden embeddings, the second weights and bias, and the pairs with
  their weights, and does not write the hidden embeddings.  The log-softmax is an outlined function whose operations
  name their buffers by typed references; contents carried to such a reference and back are unchanged, which is
  removed before the two sides are compared.
-/
import proofs.«123645_j26379689132134_1_alg».proof.Proof.RefGroups
import proofs.«123645_j26379689132134_1_alg».proof.Proof.GcnSpec
import proofs.«123645_j26379689132134_1_alg».proof.Proof.LibTypedRef
import Idealize.ShloMosaic.PureOps.Ideal

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable (U : Valuation τ sig (Elt Ideal))

theorem layer2_logProbs : after opsLayer2 U (Proc.devRef .tc main_v62)
    = Cert.Gcn.logProbs (U (Proc.devRef .tc main_v44)) (U (Proc.devRef .tc main_arg4)) (U (Proc.devRef .tc main_arg5)) (U (Proc.devRef .tc main_v3)) (U (Proc.devRef .tc main_v6)) (U (Proc.devRef .tc main_v26)) := by
  simp only [opsLayer2, ops, List.take_succ_cons, List.take_zero, List.drop_succ_cons, List.drop_zero]
  after_results_simp
  simp only [Cert.Lib.TypedRef.ofBuf_toBuf]
  have hin : ∀ w, (TRef.of (sig := sig) (T := ⟨S50000x10, .f32⟩) main_v61).ofBuf (Val := Elt Ideal) w = w := fun _ => rfl
  have hout : ∀ w, (TRef.of (sig := sig) (T := ⟨S50000x10, .f32⟩) main_v62).toBuf (Val := Elt Ideal) w = w := fun _ => rfl
  simp only [hin, hout]
  rfl
theorem layer2_hidden : after opsLayer2 U (Proc.devRef .tc main_v44) = U (Proc.devRef .tc main_v44) := by
  simp only [opsLayer2, ops, List.take_succ_cons, List.take_zero, List.drop_succ_cons, List.drop_zero]
  after_results_simp <;> rfl

end Cert.ReferenceIdeal.RefValue

end
-- ==== Proof.RefArgs.lean ====
/-
  No operation of the reference writes an argument: after the 91 operations each argument buffer holds what it was
  launched with.
-/
import proofs.«123645_j26379689132134_1_alg».proof.Proof.RefOps
import Idealize.ShloMosaic.PureOps.Ideal

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ) (d : Dev nD)
theorem arg0_eq : after (ops (F := Ideal)) (launchContents m d) (Proc.devRef .tc main_arg0) = (m ((d.tc : Thread nD τ).loc main_arg0)) := by
  after_results_simp <;> rfl
theorem arg1_eq : after (ops (F := Ideal)) (launchContents m d) (Proc.devRef .tc main_arg1) = (m ((d.tc : Thread nD τ).loc main_arg1)) := by
  after_results_simp <;> rfl
theorem arg2_eq : after (ops (F := Ideal)) (launchContents m d) (Proc.devRef .tc main_arg2) = (m ((d.tc : Thread nD τ).loc main_arg2)) := by
  after_results_simp <;> rfl
theorem arg3_eq : after (ops (F := Ideal)) (launchContents m d) (Proc.devRef .tc main_arg3) = (m ((d.tc : Thread nD τ).loc main_arg3)) := by
  after_results_simp <;> rfl
theorem arg4_eq : after (ops (F := Ideal)) (launchContents m d) (Proc.devRef .tc main_arg4) = (m ((d.tc : Thread nD τ).loc main_arg4)) := by
  after_results_simp <;> rfl
theorem arg5_eq : after (ops (F := Ideal)) (launchContents m d) (Proc.devRef .tc main_arg5) = (m ((d.tc : Thread nD τ).loc main_arg5)) := by
  after_results_simp <;> rfl

end Cert.ReferenceIdeal.RefValue

end
-- ==== Proof.RefValue.lean ====
/-
  The idealized reference's run with its two results as functions of the arguments: the three groups of operations
  chained — the pairs and their weights from the edge list, the first layer on the features, the second layer on the
  hidden embeddings — from the launch contents.
-/
import proofs.«123645_j26379689132134_1_alg».proof.Proof.RefGroups
import proofs.«123645_j26379689132134_1_alg».proof.Proof.RefPairs
import proofs.«123645_j26379689132134_1_alg».proof.Proof.RefLayer1
import proofs.«123645_j26379689132134_1_alg».proof.Proof.RefLayer2
import proofs.«123645_j26379689132134_1_alg».proof.Proof.RefArgs
import proofs.«123645_j26379689132134_1_alg».proof.Proof.GcnSpec
import Idealize.ShloMosaic.PureOps.Ideal

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ) (d : Dev nD)

/-- THE HIDDEN EMBEDDINGS after the 91 operations. -/
theorem hidden_eq : after (ops (F := Ideal)) (launchContents m d) (Proc.devRef .tc main_v44)
    = Cert.Gcn.hidden (m ((d.tc : Thread nD τ).loc main_arg0)) (m ((d.tc : Thread nD τ).loc main_arg2)) (m ((d.tc : Thread nD τ).loc main_arg3)) (Cert.Gcn.srcIdx (m ((d.tc : Thread nD τ).loc main_arg1))) (Cert.Gcn.dstIdx (m ((d.tc : Thread nD τ).loc main_arg1))) (Cert.Gcn.pairWeight (Cert.Gcn.srcIdx (m ((d.tc : Thread nD τ).loc main_arg1))) (Cert.Gcn.dstIdx (m ((d.tc : Thread nD τ).loc main_arg1)))) := by
  rw [after_ops, layer2_hidden, layer1_hidden, pairs_src, pairs_dst, pairs_wt, pairs_arg0, pairs_arg2, pairs_arg3]

/-- THE LOG-PROBABILITIES after the 91 operations. -/
theorem logProbs_eq : after (ops (F := Ideal)) (launchContents m d) (Proc.devRef .tc main_v62)
    = Cert.Gcn.logProbs (Cert.Gcn.hidden (m ((d.tc : Thread nD τ).loc main_arg0)) (m ((d.tc : Thread nD τ).loc main_arg2)) (m ((d.tc : Thread nD τ).loc main_arg3)) (Cert.Gcn.srcIdx (m ((d.tc : Thread nD τ).loc main_arg1))) (Cert.Gcn.dstIdx (m ((d.tc : Thread nD τ).loc main_arg1))) (Cert.Gcn.pairWeight (Cert.Gcn.srcIdx (m ((d.tc : Thread nD τ).loc main_arg1))) (Cert.Gcn.dstIdx (m ((d.tc : Thread nD τ).loc main_arg1))))) (m ((d.tc : Thread nD τ).loc main_arg4)) (m ((d.tc : Thread nD τ).loc main_arg5)) (Cert.Gcn.srcIdx (m ((d.tc : Thread nD τ).loc main_arg1))) (Cert.Gcn.dstIdx (m ((d.tc : Thread nD τ).loc main_arg1))) (Cert.Gcn.pairWeight (Cert.Gcn.srcIdx (m ((d.tc : Thread nD τ).loc main_arg1))) (Cert.Gcn.dstIdx (m ((d.tc : Thread nD τ).loc main_arg1)))) := by
  rw [after_ops, layer2_logProbs, layer1_hidden, layer1_arg4, layer1_arg5, layer1_v3, layer1_v6, layer1_v26,
    pairs_src, pairs_dst, pairs_wt, pairs_arg0, pairs_arg2, pairs_arg3, pairs_arg4, pairs_arg5]

/-- Every weakly fair execution of the reference terminates without a fault, with the log-probabilities and the hidden
    embeddings at the two-layer functions of the arguments, and the arguments as launched. -/
theorem run (ρ : Dev nD → PrngReg) :
    θ_run defs (onTc (τ := τ) (main (F := Ideal))) ⟨m, fun _ => 0, ρ⟩ fun r => ∀ d : Dev nD,
      r.2.mem ((d.tc : Thread nD τ).loc main_v62) = Cert.Gcn.logProbs (Cert.Gcn.hidden (m ((d.tc : Thread nD τ).loc main_arg0)) (m ((d.tc : Thread nD τ).loc main_arg2)) (m ((d.tc : Thread nD τ).loc main_arg3)) (Cert.Gcn.srcIdx (m ((d.tc : Thread nD τ).loc main_arg1))) (Cert.Gcn.dstIdx (m ((d.tc : Thread nD τ).loc main_arg1))) (Cert.Gcn.pairWeight (Cert.Gcn.srcIdx (m ((d.tc : Thread nD τ).loc main_arg1))) (Cert.Gcn.dstIdx (m ((d.tc : Thread nD τ).loc main_arg1))))) (m ((d.tc : Thread nD τ).loc main_arg4)) (m ((d.tc : Thread nD τ).loc main_arg5)) (Cert.Gcn.srcIdx (m ((d.tc : Thread nD τ).loc main_arg1))) (Cert.Gcn.dstIdx (m ((d.tc : Thread nD τ).loc main_arg1))) (Cert.Gcn.pairWeight (Cert.Gcn.srcIdx (m ((d.tc : Thread nD τ).loc main_arg1))) (Cert.Gcn.dstIdx (m ((d.tc : Thread nD τ).loc main_arg1))))
      ∧ r.2.mem ((d.tc : Thread nD τ).loc main_v44) = Cert.Gcn.hidden (m ((d.tc : Thread nD τ).loc main_arg0)) (m ((d.tc : Thread nD τ).loc main_arg2)) (m ((d.tc : Thread nD τ).loc main_arg3)) (Cert.Gcn.srcIdx (m ((d.tc : Thread nD τ).loc main_arg1))) (Cert.Gcn.dstIdx (m ((d.tc : Thread nD τ).loc main_arg1))) (Cert.Gcn.pairWeight (Cert.Gcn.srcIdx (m ((d.tc : Thread nD τ).loc main_arg1))) (Cert.Gcn.dstIdx (m ((d.tc : Thread nD τ).loc main_arg1))))
      ∧ r.2.mem ((d.tc : Thread nD τ).loc main_arg0) = (m ((d.tc : Thread nD τ).loc main_arg0))
      ∧ r.2.mem ((d.tc : Thread nD τ).loc main_arg1) = (m ((d.tc : Thread nD τ).loc main_arg1))
      ∧ r.2.mem ((d.tc : Thread nD τ).loc main_arg2) = (m ((d.tc : Thread nD τ).loc main_arg2))
      ∧ r.2.mem ((d.tc : Thread nD τ).loc main_arg3) = (m ((d.tc : Thread nD τ).loc main_arg3))
      ∧ r.2.mem ((d.tc : Thread nD τ).loc main_arg4) = (m ((d.tc : Thread nD τ).loc main_arg4))
      ∧ r.2.mem ((d.tc : Thread nD τ).loc main_arg5) = (m ((d.tc : Thread nD τ).loc main_arg5)) :=
  (θ_run defs _ _).mono (fun _ h d => ⟨(h d main_v62).trans (logProbs_eq m d), (h d main_v44).trans (hidden_eq m d),
      (h d main_arg0).trans (arg0_eq m d), (h d main_arg1).trans (arg1_eq m d), (h d main_arg2).trans (arg2_eq m d),
      (h d main_arg3).trans (arg3_eq m d), (h d main_arg4).trans (arg4_eq m d), (h d main_arg5).trans (arg5_eq m d)⟩)
    (run_after (F := Ideal) m ρ)

end Cert.ReferenceIdeal.RefValue

end
-- ==== Proof.lean ====
/-
  Kernel and reference compute the same two-layer graph convolution.

  Both programs build, from the edge list with a self loop per node, the 850000 (source, target) pairs and the weight
  1 / sqrt (deg source · deg target) of each pair; both multiply the features by the first weight matrix, let every
  target node sum its sources' rows times the pair's weight, add the first bias and take the maximum with zero (the
  hidden embeddings, the second result); both multiply those by the second weight matrix, propagate again, add the
  second bias and take the logarithm of the softmax of every row (the first result).  The kernel computes the two
  matrix products and the two bias steps block by block on a grid (25 blocks of 2000 rows, 10 blocks of 5000 rows),
  the reference on the whole arrays; a row block of a product, of a bias sum, and of a row-wise log-softmax is the
  whole-array result read at the block's rows, and the blocks tile the rows.  A change of float format is the
  identity on the extended reals, so the kernel's rounding of the matrix operands changes nothing there.  Everything
  else — the gathers, the scatter-adds, the weights — is the same operations on both sides, applied to equal arrays.
  No law of arithmetic is used beyond that, so the finiteness of the inputs is never opened.
-/
import proofs.«123645_j26379689132134_1_alg».proof.Defs
import proofs.«123645_j26379689132134_1_alg».proof.Proof.Gen.Kernel
import proofs.«123645_j26379689132134_1_alg».proof.Proof.Gen.Kernel.Frame
import proofs.«123645_j26379689132134_1_alg».proof.Proof.Gen.KernelIdeal
import proofs.«123645_j26379689132134_1_alg».proof.Proof.Gen.KernelIdeal.Frame
import proofs.«123645_j26379689132134_1_alg».proof.Proof.Gen.ReferenceIdeal
import proofs.«123645_j26379689132134_1_alg».proof.Proof.Gen.Pre_finite_inputs
import proofs.«123645_j26379689132134_1_alg».proof.Proof.KernelRun
import proofs.«123645_j26379689132134_1_alg».proof.Proof.KernelValue
import proofs.«123645_j26379689132134_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the two results dropped. -/
theorem frame_referenceIdeal : Cert.frame_ReferenceIdeal := fun m ρ _ =>
  (θ_run Cert.ReferenceIdeal.defs _ _).mono (fun _ h d => (h d).2.2) (Cert.ReferenceIdeal.RefValue.run m ρ)

/-- The idealization rewrote no operation. -/
theorem preserves : Cert.preserves_Kernel_KernelIdeal := trivial

/-- From memories that agree on the six arguments both programs end with the log-probabilities and the hidden
    embeddings at the same two-layer functions of the arguments. -/
theorem algebraic : Cert.algebraic_KernelIdeal_ReferenceIdeal := by
  intro m ρ m' ρ' _ hagree
  refine ⟨fun c => Cert.Gcn.logProbs (Cert.Gcn.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.Gcn.srcIdx (m ((c.tc : Thread Cert.KernelIdeal.nD Cert.KernelIdeal.τ).loc Cert.KernelIdeal.main_arg1))) (Cert.Gcn.dstIdx (m ((c.tc : Thread Cert.KernelIdeal.nD Cert.KernelIdeal.τ).loc Cert.KernelIdeal.main_arg1))) (Cert.Gcn.pairWeight (Cert.Gcn.srcIdx (m ((c.tc : Thread Cert.KernelIdeal.nD Cert.KernelIdeal.τ).loc Cert.KernelIdeal.main_arg1))) (Cert.Gcn.dstIdx (m ((c.tc : Thread Cert.KernelIdeal.nD Cert.KernelIdeal.τ).loc Cert.KernelIdeal.main_arg1))))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.Gcn.srcIdx (m ((c.tc : Thread Cert.KernelIdeal.nD Cert.KernelIdeal.τ).loc Cert.KernelIdeal.main_arg1))) (Cert.Gcn.dstIdx (m ((c.tc : Thread Cert.KernelIdeal.nD Cert.KernelIdeal.τ).loc Cert.KernelIdeal.main_arg1))) (Cert.Gcn.pairWeight (Cert.Gcn.srcIdx (m ((c.tc : Thread Cert.KernelIdeal.nD Cert.KernelIdeal.τ).loc Cert.KernelIdeal.main_arg1))) (Cert.Gcn.dstIdx (m ((c.tc : Thread Cert.KernelIdeal.nD Cert.KernelIdeal.τ).loc Cert.KernelIdeal.main_arg1)))),
    fun c => (Cert.Gcn.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.Gcn.srcIdx (m ((c.tc : Thread Cert.KernelIdeal.nD Cert.KernelIdeal.τ).loc Cert.KernelIdeal.main_arg1))) (Cert.Gcn.dstIdx (m ((c.tc : Thread Cert.KernelIdeal.nD Cert.KernelIdeal.τ).loc Cert.KernelIdeal.main_arg1))) (Cert.Gcn.pairWeight (Cert.Gcn.srcIdx (m ((c.tc : Thread Cert.KernelIdeal.nD Cert.KernelIdeal.τ).loc Cert.KernelIdeal.main_arg1))) (Cert.Gcn.dstIdx (m ((c.tc : Thread Cert.KernelIdeal.nD Cert.KernelIdeal.τ).loc Cert.KernelIdeal.main_arg1))))), ?_, ?_⟩
  · exact (θ_run Cert.KernelIdeal.defs _ _).mono
      (fun _ h c => ⟨(h c).1.trans (Cert.KernelIdeal.Value.logProbs_eq m ρ c),
        (h c).2.1.trans (Cert.KernelIdeal.Value.hidden_eq m ρ c), (h c).2.2⟩)
      (Cert.KernelIdeal.Run.run_results (F := Ideal) m ρ)
  · refine (θ_run Cert.ReferenceIdeal.defs _ _).mono (fun _ h c => ?_) (Cert.ReferenceIdeal.RefValue.run m' ρ')
    obtain ⟨e0, e1, e2, e3, e4, e5⟩ := hagree c
    refine ⟨(h c).1.trans ?_, (h c).2.1.trans ?_, (h c).2.2⟩
    · rw [e0, e1, e2, e3, e4, e5]
    · rw [e0, e1, e2, e3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
